-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S2x16x2048x2048 : Shape := ⟨4, ![2, 16, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .f32⟩
  | .hbm, ⟨8, _⟩ => ⟨S2x16x2048x64, .f32⟩
  | .hbm, ⟨9, _⟩ => ⟨S2x16x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | .local _ .vmem, ⟨8, _⟩ => ⟨S1x256x2048, .f32⟩
  | .local _ .vmem, ⟨9, _⟩ => ⟨S1x256x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x64_S1x256x64 : S256x64.ShapeCasts S1x256x64
  shapeCasts_S32x2048x64_S2x16x2048x64 : S32x2048x64.ShapeCasts S2x16x2048x64
  shapeCasts_S32x2048x2048_S2x16x2048x2048 : S32x2048x2048.ShapeCasts S2x16x2048x2048
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x2048x64.size a
  hwx0_0 : ∀ i : grid0.Coords, EltTy.bits .f32 = 32 ∨ (Rect.block (s := S32x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S32x2048x64.size a
  hwx0_3 : ∀ i : grid0.Coords, EltTy.bits .f32 = 32 ∨ (Rect.block (s := S32x2048x64) S1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S32x2048x2048.size a
  hwx0_4 : ∀ i : grid0.Coords, EltTy.bits .f32 = 32 ∨ (Rect.block (s := S32x2048x2048) S1x256x2048.size (cc0_transform_4 i) (hinb0_4 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 17
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x16x2048, .f32⟩
  | .hbm, ⟨10, _⟩ => ⟨S2x16x2048x1, .f32⟩
  | .hbm, ⟨11, _⟩ => ⟨S_, .f32⟩
  | .hbm, ⟨12, _⟩ => ⟨S2x16x2048x1, .f32⟩
  | .hbm, ⟨13, _⟩ => ⟨S2x16x2048x1, .f32⟩
  | .hbm, ⟨14, _⟩ => ⟨S2x16x2048x2048, .f32⟩
  | .hbm, ⟨15, _⟩ => ⟨S2x16x2048x2048, .f32⟩
  | .hbm, ⟨16, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Power-normalised attention, one query row at a time.

  For one head with keys `km` and values `vm` (2048 rows of 64 entries each) and one query row `qr` (64 entries):

      score j   =  (Σ_d qr d · km j d) · 1/8
      weight j  =  score j · score j
      total     =  (Σ_j weight j) + ε
      prob j    =  weight j / total
      out e     =  Σ_j prob j · vm j e

  on the extended reals. Every row of the attention is this function of its own query row and of its head's keys and
  values, and of nothing else: that is what lets a program compute the rows in any tiling. The scale 1/8 and the
  stabiliser ε are the 32-bit patterns both programs spell; they are never evaluated.
-/
import Idealize.ShloMosaic.PureOps.Ideal
import Idealize.ShloMosaic.Lib.ValueIdx

noncomputable section

open scoped BigOperators

namespace Cert.PowerAttn

open Idealize.ShloMosaic

/-- One head's keys, or its values: 2048 rows of 64 entries. -/
abbrev Rows := Fin 2048 → Fin 64 → EReal

/-- The scale 1/√64 = 1/8, as its 32-bit pattern. -/
def scale : EReal := Ideal.ofBits .f32 0x3E000000#32
/-- The stabiliser added to a row's total weight, as its 32-bit pattern. -/
def eps : EReal := Ideal.ofBits .f32 0x358637BD#32

/-- The scaled inner product of the query row with key row `j`. -/
def rowScore (qr : Fin 64 → EReal) (km : Rows) (j : Fin 2048) : EReal := (∑ d : Fin 64, qr d * km j d) * scale
/-- Its square: the unnormalised weight of key `j`. -/
def rowWeight (qr : Fin 64 → EReal) (km : Rows) (j : Fin 2048) : EReal := rowScore qr km j * rowScore qr km j
/-- The row's total weight, stabilised. -/
def rowTotal (qr : Fin 64 → EReal) (km : Rows) : EReal := (∑ j : Fin 2048, rowWeight qr km j) + eps
/-- The normalised weight of key `j`. -/
def rowProb (qr : Fin 64 → EReal) (km : Rows) (j : Fin 2048) : EReal := Ideal.div (rowWeight qr km j) (rowTotal qr km)
/-- The row of the output: the values averaged with the normalised weights. -/
def rowOut (qr : Fin 64 → EReal) (km vm : Rows) (e : Fin 64) : EReal := ∑ j : Fin 2048, rowProb qr km j * vm j e

end Cert.PowerAttn

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  What the kernel's body computes, read at an index.

  At one grid point the body holds a block of 256 query rows and ALL 2048 key rows and value rows of one head. Its
  first product is the 256 × 2048 table of inner products of query rows with key rows (the keys transposed so that a
  plain row-by-column product reads key row `j` down column `j`); scaled, squared, summed along each row, stabilised
  and divided, row `r` of the table becomes the normalised weights of query row `r`; the second product averages
  the value rows with them. Narrowing a number to a shorter float format changes nothing at the ideal values, and a
  product accumulated into zero is the bare sum. So each row the body stores is the row function of the specification
  at that block's query row.
-/
import proofs.«152474_j47691316855187_1_alg».proof.Proof.Gen.KernelIdeal.Skeleton
import proofs.«152474_j47691316855187_1_alg».proof.Proof.Spec
import proofs.«152474_j47691316855187_1_alg».proof.Proof.LibPlainDot
import proofs.«152474_j47691316855187_1_alg».proof.Proof.LibColumn
import Idealize.ShloMosaic.Lib.ValueLayout
import Idealize.ShloMosaic.Lib.Pipeline.Value
import Idealize.ShloMosaic.PureOps.Ideal.Laws

noncomputable section

open scoped BigOperators

namespace Cert.PowerAttn

open Idealize.ShloMosaic Idealize.ShloMosaic.ValueIdx
open Cert.KernelIdeal Cert.KernelIdeal.Gen

/-- The table of inner products: a 256 × 64 by 64 × 2048 product into zero, at `(r, j)`. -/
theorem table_apply (A : FVec Ideal S256x64 .bf16) (B : FVec Ideal S64x2048 .bf16) (r : Fin 256) (j : Fin 2048) :
    matmul dot_S256x64_S64x2048_S256x2048_1_0_0_1_n_n none A B (constant (F := Ideal) S256x2048 .f32 0x00000000#32) (ix2 r j)
      = ∑ d : Fin 64, A (ix2 r d) * B (ix2 d j) :=
  Cert.LibPlainDot.matmul_zero_apply (M := 256) (K := 64) (N := 2048) none A B r j

/-- The averaging product: a 256 × 2048 by 2048 × 64 product into zero, at `(r, e)`. -/
theorem average_apply (A : FVec Ideal S256x2048 .bf16) (B : FVec Ideal S2048x64 .bf16) (r : Fin 256) (e : Fin 64) :
    matmul dot_S256x2048_S2048x64_S256x64_1_0_0_1_n_n none A B (constant (F := Ideal) S256x64 .f32 0x00000000#32) (ix2 r e)
      = ∑ j : Fin 2048, A (ix2 r j) * B (ix2 j e) :=
  Cert.LibPlainDot.matmul_zero_apply (M := 256) (K := 2048) (N := 64) none A B r e

/-- A sum along the rows of a 256 × 2048 table, at row `r`. -/
theorem rowSum_apply (src : FVec Ideal S256x2048 .f32) (h : S256x2048.Reduces [1] S256) (hφ : FKind.Formats .f32)
    (hacc : (0x00000000#32 : BitVec 32) = FKind.add.neutral .f32 hφ) (r : Fin 256) :
    multiReduction .add [1] S256 src 0x00000000#32 h hφ hacc (ix1 r) = ∑ j : Fin 2048, src (ix2 r j) := by
  refine (Ideal.multiReduction_add_single src _ h hφ hacc (ix1 r)).trans ?_
  refine Finset.sum_congr rfl fun k _ => congrArg src (funext fun a => Fin.ext ?_)
  match a with
  | ⟨0, _⟩ => rfl
  | ⟨1, _⟩ => rfl

/-- THE WEIGHTS: entry `(r, j)` of the table the body divides is the normalised weight of key `j` for the block's
    query row `r`. -/
theorem pay1_apply (x0 : Vec Ideal S1x256x64 .f32) (x1 : Vec Ideal S1x2048x64 .f32) (r : Fin 256) (j : Fin 2048) :
    k0_pay1 (F := Ideal) x0 x1 (ix2 r j)
      = rowProb (fun d => x0 (ix3 (0 : Fin 1) r d)) (fun j' d => x1 (ix3 (0 : Fin 1) j' d)) j := by
  -- the scaled inner product at any entry of the table
  have hscore : ∀ (r' : Fin 256) (j' : Fin 2048),
      mulf (matmul dot_S256x64_S64x2048_S256x2048_1_0_0_1_n_n none
          (truncf .bf16 (shapeCast S256x64 x0 shapeCasts_S1x256x64_S256x64) bitsLt_bf16_f32 : FVec Ideal S256x64 .bf16)
          (transpose S64x2048 [1, 0]
            (truncf .bf16 (shapeCast S2048x64 x1 shapeCasts_S1x2048x64_S2048x64) bitsLt_bf16_f32 : FVec Ideal S2048x64 .bf16)
            transposes_S2048x64_p1_0_S64x2048)
          (constant (F := Ideal) S256x2048 .f32 0x00000000#32))
        (broadcast S256x2048 (Scalar.ofBits (F := Ideal) .f32 0x3E000000#32)) (ix2 r' j')
      = rowScore (fun d => x0 (ix3 (0 : Fin 1) r' d)) (fun j'' d => x1 (ix3 (0 : Fin 1) j'' d)) j' := by
    intro r' j'
    show _ * _ = _
    rw [table_apply]
    unfold rowScore
    refine congrArg₂ (· * ·) (Finset.sum_congr rfl fun d _ => ?_) rfl
    rw [truncf_apply, shapeCast_1ab_ab_apply, transpose_ix2_apply, truncf_apply, shapeCast_1ab_ab_apply]
  unfold k0_pay1 rowProb
  refine congrArg₂ Ideal.div ?_ ?_
  · -- the weight
    show _ * _ = rowWeight _ _ _
    rw [hscore]; rfl
  · -- the row's stabilised total, broadcast along the row
    refine (Cert.LibColumn.broadcastTo_a1_ab_apply _ broadcasts_S256x1_S256x2048 r j).trans ?_
    show _ + _ = rowTotal _ _
    unfold rowTotal
    refine congrArg₂ (· + ·) ?_ rfl
    refine (Cert.LibColumn.shapeCast_a_a1_apply _ shapeCasts_S256_S256x1 r (0 : Fin 1)).trans ?_
    refine (rowSum_apply _ _ _ _ r).trans ?_
    refine Finset.sum_congr rfl fun j' _ => ?_
    show _ * _ = rowWeight _ _ _
    rw [hscore]; rfl

/-- The block of weights the body stores, with its leading unit axis. -/
theorem pay2_apply (x0 : Vec Ideal S1x256x64 .f32) (x1 : Vec Ideal S1x2048x64 .f32) (u : Fin 1) (r : Fin 256) (j : Fin 2048) :
    k0_pay2 (F := Ideal) x0 x1 (ix3 u r j)
      = rowProb (fun d => x0 (ix3 (0 : Fin 1) r d)) (fun j' d => x1 (ix3 (0 : Fin 1) j' d)) j := by
  unfold k0_pay2
  exact (shapeCast_ab_1ab_apply _ shapeCasts_S256x2048_S1x256x2048 u r j).trans (pay1_apply x0 x1 r j)

/-- THE OUTPUT: entry `(r, e)` of the block the body stores is the output row of the block's query row `r`. -/
theorem pay3_apply (x0 : Vec Ideal S1x256x64 .f32) (x1 x2 : Vec Ideal S1x2048x64 .f32) (u : Fin 1) (r : Fin 256) (e : Fin 64) :
    k0_pay3 (F := Ideal) x0 x1 x2 (ix3 u r e)
      = rowOut (fun d => x0 (ix3 (0 : Fin 1) r d)) (fun j' d => x1 (ix3 (0 : Fin 1) j' d))
          (fun j' e' => x2 (ix3 (0 : Fin 1) j' e')) e := by
  unfold k0_pay3
  refine (shapeCast_ab_1ab_apply _ shapeCasts_S256x64_S1x256x64 u r e).trans ?_
  refine (average_apply _ _ r e).trans ?_
  unfold rowOut
  refine Finset.sum_congr rfl fun j' _ => ?_
  rw [truncf_apply, pay1_apply, truncf_apply, shapeCast_1ab_ab_apply]

end Cert.PowerAttn

end
-- ==== Proof.Heads.lean ====
/-
  The attention of all heads, as arrays.

  The 32 heads are laid out either as one stack of 32 matrices, or as 2 batches of 16 heads; head `h` of batch `b`
  is matrix `16·b + h` of the stack, and a row-major reshape between the two layouts moves no entry. So computing
  the stacked attention of the stacked inputs and unstacking the result is the attention in the batched layout.
-/
import proofs.«152474_j47691316855187_1_alg».proof.Proof.Spec
import Idealize.ShloMosaic.Lib.Pipeline.Value

noncomputable section

open scoped BigOperators

namespace Cert.PowerAttn

open Idealize.ShloMosaic Idealize.ShloMosaic.ValueIdx

variable {α : Type}

/-- Head `h` of batch `b` in the stack of 32. -/
def stackIx (b : Fin 2) (h : Fin 16) : Fin 32 := ⟨b.val * 16 + h.val, by omega⟩

/-- Stacking: a `[2, 16, n, c]` array reshaped to `[32, n, c]` reads, at `(16·b + h, r, d)`, the entry `(b, h, r, d)`. -/
theorem stack_apply {n c : ℕ} (x : (⟨4, ![2, 16, n, c]⟩ : Shape).Idx → α)
    (hs : (⟨4, ![2, 16, n, c]⟩ : Shape).ShapeCasts ⟨3, ![32, n, c]⟩) (b : Fin 2) (h : Fin 16) (r : Fin n) (d : Fin c) :
    shapeCast ⟨3, ![32, n, c]⟩ x hs (ix3 (stackIx b h) r d) = x (ix4 b h r d) :=
  shapeCast_apply x hs _ _ (by
    rw [Shape.rowMajor_val_four, Shape.rowMajor_val_three]
    rfl)

/-- Unstacking: a `[32, n, c]` array reshaped to `[2, 16, n, c]` reads, at `(b, h, r, d)`, the entry `(16·b + h, r, d)`. -/
theorem unstack_apply {n c : ℕ} (y : (⟨3, ![32, n, c]⟩ : Shape).Idx → α)
    (hs : (⟨3, ![32, n, c]⟩ : Shape).ShapeCasts ⟨4, ![2, 16, n, c]⟩) (b : Fin 2) (h : Fin 16) (r : Fin n) (d : Fin c) :
    shapeCast ⟨4, ![2, 16, n, c]⟩ y hs (ix4 b h r d) = y (ix3 (stackIx b h) r d) :=
  shapeCast_apply y hs _ _ (by
    rw [Shape.rowMajor_val_four, Shape.rowMajor_val_three]
    rfl)

/-! ## The stacked layout -/

/-- The normalised weights of the whole stack: row `r` of head `g` is that row's weights against head `g`'s keys. -/
def prob3 (Q K : (⟨3, ![32, 2048, 64]⟩ : Shape).Idx → EReal) : (⟨3, ![32, 2048, 2048]⟩ : Shape).Idx → EReal :=
  fun i => rowProb (fun d => Q (ix3 (i 0 : Fin 32) (i 1 : Fin 2048) d)) (fun j d => K (ix3 (i 0 : Fin 32) j d)) (i 2 : Fin 2048)

/-- The outputs of the whole stack. -/
def out3 (Q K W : (⟨3, ![32, 2048, 64]⟩ : Shape).Idx → EReal) : (⟨3, ![32, 2048, 64]⟩ : Shape).Idx → EReal :=
  fun i => rowOut (fun d => Q (ix3 (i 0 : Fin 32) (i 1 : Fin 2048) d)) (fun j d => K (ix3 (i 0 : Fin 32) j d))
    (fun j e => W (ix3 (i 0 : Fin 32) j e)) (i 2 : Fin 64)

/-! ## The batched layout -/

/-- The normalised weights, batch by batch and head by head. -/
def prob4 (q k : (⟨4, ![2, 16, 2048, 64]⟩ : Shape).Idx → EReal) : (⟨4, ![2, 16, 2048, 2048]⟩ : Shape).Idx → EReal :=
  fun i => rowProb (fun d => q (ix4 (i 0 : Fin 2) (i 1 : Fin 16) (i 2 : Fin 2048) d))
    (fun j d => k (ix4 (i 0 : Fin 2) (i 1 : Fin 16) j d)) (i 3 : Fin 2048)

/-- The outputs, batch by batch and head by head. -/
def out4 (q k v : (⟨4, ![2, 16, 2048, 64]⟩ : Shape).Idx → EReal) : (⟨4, ![2, 16, 2048, 64]⟩ : Shape).Idx → EReal :=
  fun i => rowOut (fun d => q (ix4 (i 0 : Fin 2) (i 1 : Fin 16) (i 2 : Fin 2048) d))
    (fun j d => k (ix4 (i 0 : Fin 2) (i 1 : Fin 16) j d)) (fun j e => v (ix4 (i 0 : Fin 2) (i 1 : Fin 16) j e)) (i 3 : Fin 64)

/-! ## Stack, attend, unstack -/

/-- The stacked weights of the stacked inputs, unstacked, are the batched weights. -/
theorem unstack_prob3 (q k : (⟨4, ![2, 16, 2048, 64]⟩ : Shape).Idx → EReal)
    (hi : (⟨4, ![2, 16, 2048, 64]⟩ : Shape).ShapeCasts ⟨3, ![32, 2048, 64]⟩)
    (ho : (⟨3, ![32, 2048, 2048]⟩ : Shape).ShapeCasts ⟨4, ![2, 16, 2048, 2048]⟩) :
    shapeCast ⟨4, ![2, 16, 2048, 2048]⟩
        (prob3 (shapeCast ⟨3, ![32, 2048, 64]⟩ q hi) (shapeCast ⟨3, ![32, 2048, 64]⟩ k hi)) ho = prob4 q k := by
  funext i
  obtain ⟨b, h, r, j, rfl⟩ : ∃ (b : Fin 2) (h : Fin 16) (r : Fin 2048) (j : Fin 2048), i = ix4 b h r j :=
    ⟨i 0, i 1, i 2, i 3, eq_ix4 i⟩
  rw [unstack_apply]
  show rowProb (fun d => shapeCast ⟨3, ![32, 2048, 64]⟩ q hi (ix3 (stackIx b h) r d))
      (fun j' d => shapeCast ⟨3, ![32, 2048, 64]⟩ k hi (ix3 (stackIx b h) j' d)) j
    = rowProb (fun d => q (ix4 b h r d)) (fun j' d => k (ix4 b h j' d)) j
  simp only [stack_apply]

/-- The stacked outputs of the stacked inputs, unstacked, are the batched outputs. -/
theorem unstack_out3 (q k v : (⟨4, ![2, 16, 2048, 64]⟩ : Shape).Idx → EReal)
    (hi : (⟨4, ![2, 16, 2048, 64]⟩ : Shape).ShapeCasts ⟨3, ![32, 2048, 64]⟩)
    (ho : (⟨3, ![32, 2048, 64]⟩ : Shape).ShapeCasts ⟨4, ![2, 16, 2048, 64]⟩) :
    shapeCast ⟨4, ![2, 16, 2048, 64]⟩
        (out3 (shapeCast ⟨3, ![32, 2048, 64]⟩ q hi) (shapeCast ⟨3, ![32, 2048, 64]⟩ k hi)
          (shapeCast ⟨3, ![32, 2048, 64]⟩ v hi)) ho = out4 q k v := by
  funext i
  obtain ⟨b, h, r, e, rfl⟩ : ∃ (b : Fin 2) (h : Fin 16) (r : Fin 2048) (e : Fin 64), i = ix4 b h r e :=
    ⟨i 0, i 1, i 2, i 3, eq_ix4 i⟩
  rw [unstack_apply]
  show rowOut (fun d => shapeCast ⟨3, ![32, 2048, 64]⟩ q hi (ix3 (stackIx b h) r d))
      (fun j' d => shapeCast ⟨3, ![32, 2048, 64]⟩ k hi (ix3 (stackIx b h) j' d))
      (fun j' e' => shapeCast ⟨3, ![32, 2048, 64]⟩ v hi (ix3 (stackIx b h) j' e')) e
    = rowOut (fun d => q (ix4 b h r d)) (fun j' d => k (ix4 b h j' d)) (fun j' e' => v (ix4 b h j' e')) e
  simp only [stack_apply]

end Cert.PowerAttn

end
-- ==== Proof.Blocks.lean ====
/-
  From the blocks the grid points write to the two whole arrays.

  The grid has 32 × 8 points. Point `(g, p)` is given rows `256·p … 256·p + 255` of head `g`'s queries and all of
  head `g`'s keys and values, and writes back rows `256·p … 256·p + 255` of head `g`'s weights and outputs. A row of
  the attention depends only on its own query row and on its head's keys and values, which are exactly what the point
  holds; so what the point writes back is its block of the stacked attention of the arrays as the region finds them.
  The blocks of the 256 points tile both output arrays, so each ends holding the stacked attention everywhere.
-/
import proofs.«152474_j47691316855187_1_alg».proof.Proof.Gen.KernelIdeal.Frame
import proofs.«152474_j47691316855187_1_alg».proof.Proof.Payload
import proofs.«152474_j47691316855187_1_alg».proof.Proof.Heads
import Idealize.ShloMosaic.Lib.Pipeline.Value

set_option maxRecDepth 16384

noncomputable section

open scoped BigOperators

namespace Cert.PowerAttn

open Idealize.ShloMosaic Idealize.ShloMosaic.TcCoe Idealize.ShloMosaic.ValueIdx Idealize.SL.Sem
open Idealize.ShloMosaic.Pipeline (Dat)
open Cert.KernelIdeal Cert.KernelIdeal.Gen

/-! ## A block of rows, stated over plain arrays -/

/-- If a block's query row `r` is row `(i 0, i 1)` of the stacked queries, its key rows are head `i 0`'s, and `j` is
    `i`'s column, then the row function at the block is the stacked weights at `i`. -/
theorem prob_block (Q K : (⟨3, ![32, 2048, 64]⟩ : Shape).Idx → EReal)
    (xq : (⟨3, ![1, 256, 64]⟩ : Shape).Idx → EReal) (xk : (⟨3, ![1, 2048, 64]⟩ : Shape).Idx → EReal)
    (i : (⟨3, ![32, 2048, 2048]⟩ : Shape).Idx) (r : Fin 256) (j : Fin 2048)
    (hq : ∀ d : Fin 64, xq (ix3 (0 : Fin 1) r d) = Q (ix3 (i 0 : Fin 32) (i 1 : Fin 2048) d))
    (hk : ∀ (j' : Fin 2048) (d : Fin 64), xk (ix3 (0 : Fin 1) j' d) = K (ix3 (i 0 : Fin 32) j' d))
    (hj : j = (i 2 : Fin 2048)) :
    rowProb (fun d => xq (ix3 (0 : Fin 1) r d)) (fun j' d => xk (ix3 (0 : Fin 1) j' d)) j = prob3 Q K i := by
  unfold prob3
  rw [show (fun d => xq (ix3 (0 : Fin 1) r d)) = fun d => Q (ix3 (i 0 : Fin 32) (i 1 : Fin 2048) d) from funext hq,
    show (fun j' d => xk (ix3 (0 : Fin 1) j' d)) = fun j' d => K (ix3 (i 0 : Fin 32) j' d) from
      funext fun j' => funext (hk j'), hj]

/-- The same for the outputs, with the block's value rows head `i 0`'s. -/
theorem out_block (Q K W : (⟨3, ![32, 2048, 64]⟩ : Shape).Idx → EReal)
    (xq : (⟨3, ![1, 256, 64]⟩ : Shape).Idx → EReal) (xk xv : (⟨3, ![1, 2048, 64]⟩ : Shape).Idx → EReal)
    (i : (⟨3, ![32, 2048, 64]⟩ : Shape).Idx) (r : Fin 256) (e : Fin 64)
    (hq : ∀ d : Fin 64, xq (ix3 (0 : Fin 1) r d) = Q (ix3 (i 0 : Fin 32) (i 1 : Fin 2048) d))
    (hk : ∀ (j' : Fin 2048) (d : Fin 64), xk (ix3 (0 : Fin 1) j' d) = K (ix3 (i 0 : Fin 32) j' d))
    (hv : ∀ (j' : Fin 2048) (e' : Fin 64), xv (ix3 (0 : Fin 1) j' e') = W (ix3 (i 0 : Fin 32) j' e'))
    (he : e = (i 2 : Fin 64)) :
    rowOut (fun d => xq (ix3 (0 : Fin 1) r d)) (fun j' d => xk (ix3 (0 : Fin 1) j' d))
        (fun j' e' => xv (ix3 (0 : Fin 1) j' e')) e = out3 Q K W i := by
  unfold out3
  rw [show (fun d => xq (ix3 (0 : Fin 1) r d)) = fun d => Q (ix3 (i 0 : Fin 32) (i 1 : Fin 2048) d) from funext hq,
    show (fun j' d => xk (ix3 (0 : Fin 1) j' d)) = fun j' d => K (ix3 (i 0 : Fin 32) j' d) from
      funext fun j' => funext (hk j'),
    show (fun j' e' => xv (ix3 (0 : Fin 1) j' e')) = fun j' e' => W (ix3 (i 0 : Fin 32) j' e') from
      funext fun j' => funext (hv j'), he]

/-! ## Which block each point is given and writes -/

variable (m : (ℓ : Loc nD τ sig) → Buf (Elt Ideal) ℓ)

theorem origin3 : (![0, 0, 0] : Fin 3 → Nat) = fun _ => 0 := funext fun a => by fin_cases a <;> rfl

/-- The printed index maps, decided over the grid: the query block and both output blocks move together along the head
    and the row-block axes; the key and value blocks move along the head axis only; no block moves along the last axis. -/
theorem block_indices : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0 ∧ win0_4.index t (2 : Fin 3) = 0 :=
  (by decide +kernel : ∀ t : Fin grid0.N, _)

/-- Every (head, row block) pair is some point's, for the weights … -/
theorem weights_onto : ∀ (g : Fin 32) (p : Fin 8), ∃ t : Fin cfg0.N, win0_4.index t = ![g.val, p.val, 0] :=
  (by decide +kernel : ∀ (g : Fin 32) (p : Fin 8), ∃ t : Fin grid0.N, win0_4.index t = ![g.val, p.val, 0])
/-- … and for the outputs. -/
theorem outputs_onto : ∀ (g : Fin 32) (p : Fin 8), ∃ t : Fin cfg0.N, win0_3.index t = ![g.val, p.val, 0] :=
  (by decide +kernel : ∀ (g : Fin 32) (p : Fin 8), ∃ t : Fin grid0.N, win0_3.index t = ![g.val, p.val, 0])

/-! ## The weights -/

/-- WHAT POINT `t` WRITES BACK to the weights array is block `t` of the stacked weights of the arrays as the region
    finds them. -/
theorem flushed_weights (c : Dev nD) (t : Fin cfg0.N) :
    (dats m 0 c).flushed 4 t
      = ((cfg0.win 4).blk t).view.read (Elt Ideal) (prob3 (V m c main_v0) (V m c main_v1)) := by
  show (cfg0.win 4).cut (grid0.coords t) ((dats m 0 c).after 4 t) = _
  rw [after0_4]
  unfold out0_4
  rw [View.canon_unit_zero origin3]
  simp only [View.ld_unit_zero (S := S1x256x64) origin3, View.ld_unit_zero (S := S1x2048x64) origin3]
  obtain ⟨e00, e01, e02, e10, e11, e12, e20, e21, e22, e30, e31, e32, e42⟩ := block_indices t
  funext y
  obtain ⟨u, r, j, rfl⟩ : ∃ (u : Fin 1) (r : Fin 256) (j : Fin 2048), y = ix3 u r j := ⟨y 0, y 1, y 2, eq_ix3 y⟩
  have hu : u.val = 0 := by omega
  show k0_pay2 (F := Ideal) (iblk m c 0 t) (iblk m c 1 t) (ix3 u r j)
    = prob3 (V m c main_v0) (V m c main_v1) (((cfg0.win 4).blk t).view.emb (ix3 u r j))
  refine (pay2_apply (iblk m c 0 t) (iblk m c 1 t) u r j).trans ?_
  refine prob_block (V m c main_v0) (V m c main_v1) (iblk m c 0 t) (iblk m c 1 t) _ r j ?_ ?_ ?_
  · intro d
    show (V m c main_v0 : S32x2048x64.Idx → EReal) (((cfg0.win 0).blk t).view.emb (ix3 (0 : Fin 1) r d)) = _
    refine congrArg (V m c main_v0 : S32x2048x64.Idx → EReal) (funext fun a => Fin.ext ?_)
    match a with
    | ⟨0, _⟩ => show win0_0.index t (0 : Fin 3) * 1 + 1 * 0 = win0_4.index t (0 : Fin 3) * 1 + 1 * u.val; omega
    | ⟨1, _⟩ => show win0_0.index t (1 : Fin 3) * 256 + 1 * r.val = win0_4.index t (1 : Fin 3) * 256 + 1 * r.val; omega
    | ⟨2, _⟩ => show win0_0.index t (2 : Fin 3) * 64 + 1 * d.val = d.val; omega
  · intro j' d
    show (V m c main_v1 : S32x2048x64.Idx → EReal) (((cfg0.win 1).blk t).view.emb (ix3 (0 : Fin 1) j' d)) = _
    refine congrArg (V m c main_v1 : S32x2048x64.Idx → EReal) (funext fun a => Fin.ext ?_)
    match a with
    | ⟨0, _⟩ => show win0_1.index t (0 : Fin 3) * 1 + 1 * 0 = win0_4.index t (0 : Fin 3) * 1 + 1 * u.val; omega
    | ⟨1, _⟩ => show win0_1.index t (1 : Fin 3) * 2048 + 1 * j'.val = j'.val; omega
    | ⟨2, _⟩ => show win0_1.index t (2 : Fin 3) * 64 + 1 * d.val = d.val; omega
  · refine Fin.ext ?_
    show j.val = win0_4.index t (2 : Fin 3) * 2048 + 1 * j.val
    omega

/-- An index of the weights array is in point `t`'s block iff each coordinate is in the block's range on its axis. -/
theorem mem_weights_block (t : Fin cfg0.N) (i : S32x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v3_1).slice (win0_4.rect t)).set ↔ _
  rw [View.set_slice_whole, Rect.mem_set_unit]
  exact Iff.rfl

/-- Every index of the weights array is in some point's block: the point of its head and of its row's block of 256. -/
theorem weights_cover (i : S32x2048x2048.Idx) :
    ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 2048 := (i 2).isLt
  obtain ⟨t, ht⟩ := weights_onto ⟨(i 0).val, h0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_weights_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- THE WEIGHTS ARRAY after the region: the stacked weights of the query and key arrays as the region finds them. -/
theorem final_weights (c : Dev nD) :
    (dats m 0 c).arrAt 4 cfg0.N = prob3 (V m c main_v0) (V m c main_v1) :=
  (dats m 0 c).arrAt_eq_of_cover 4 (prob3 (V m c main_v0) (V m c main_v1)) (fun t _ => flushed_weights m c t) weights_cover

/-! ## The outputs -/

/-- WHAT POINT `t` WRITES BACK to the output array is block `t` of the stacked outputs of the arrays as the region
    finds them. -/
theorem flushed_outputs (c : Dev nD) (t : Fin cfg0.N) :
    (dats m 0 c).flushed 3 t
      = ((cfg0.win 3).blk t).view.read (Elt Ideal) (out3 (V m c main_v0) (V m c main_v1) (V m c main_v2)) := by
  show (cfg0.win 3).cut (grid0.coords t) ((dats m 0 c).after 3 t) = _
  rw [after0_3]
  unfold out0_3
  rw [View.canon_unit_zero origin3]
  simp only [View.ld_unit_zero (S := S1x256x64) origin3, View.ld_unit_zero (S := S1x2048x64) origin3]
  obtain ⟨e00, e01, e02, e10, e11, e12, e20, e21, e22, e30, e31, e32, e42⟩ := block_indices t
  funext y
  obtain ⟨u, r, e, rfl⟩ : ∃ (u : Fin 1) (r : Fin 256) (e : Fin 64), y = ix3 u r e := ⟨y 0, y 1, y 2, eq_ix3 y⟩
  have hu : u.val = 0 := by omega
  show k0_pay3 (F := Ideal) (iblk m c 0 t) (iblk m c 1 t) (iblk m c 2 t) (ix3 u r e)
    = out3 (V m c main_v0) (V m c main_v1) (V m c main_v2) (((cfg0.win 3).blk t).view.emb (ix3 u r e))
  refine (pay3_apply (iblk m c 0 t) (iblk m c 1 t) (iblk m c 2 t) u r e).trans ?_
  refine out_block (V m c main_v0) (V m c main_v1) (V m c main_v2) (iblk m c 0 t) (iblk m c 1 t) (iblk m c 2 t) _ r e ?_ ?_ ?_ ?_
  · intro d
    show (V m c main_v0 : S32x2048x64.Idx → EReal) (((cfg0.win 0).blk t).view.emb (ix3 (0 : Fin 1) r d)) = _
    refine congrArg (V m c main_v0 : S32x2048x64.Idx → EReal) (funext fun a => Fin.ext ?_)
    match a with
    | ⟨0, _⟩ => show win0_0.index t (0 : Fin 3) * 1 + 1 * 0 = win0_3.index t (0 : Fin 3) * 1 + 1 * u.val; omega
    | ⟨1, _⟩ => show win0_0.index t (1 : Fin 3) * 256 + 1 * r.val = win0_3.index t (1 : Fin 3) * 256 + 1 * r.val; omega
    | ⟨2, _⟩ => show win0_0.index t (2 : Fin 3) * 64 + 1 * d.val = d.val; omega
  · intro j' d
    show (V m c main_v1 : S32x2048x64.Idx → EReal) (((cfg0.win 1).blk t).view.emb (ix3 (0 : Fin 1) j' d)) = _
    refine congrArg (V m c main_v1 : S32x2048x64.Idx → EReal) (funext fun a => Fin.ext ?_)
    match a with
    | ⟨0, _⟩ => show win0_1.index t (0 : Fin 3) * 1 + 1 * 0 = win0_3.index t (0 : Fin 3) * 1 + 1 * u.val; omega
    | ⟨1, _⟩ => show win0_1.index t (1 : Fin 3) * 2048 + 1 * j'.val = j'.val; omega
    | ⟨2, _⟩ => show win0_1.index t (2 : Fin 3) * 64 + 1 * d.val = d.val; omega
  · intro j' e'
    show (V m c main_v2 : S32x2048x64.Idx → EReal) (((cfg0.win 2).blk t).view.emb (ix3 (0 : Fin 1) j' e')) = _
    refine congrArg (V m c main_v2 : S32x2048x64.Idx → EReal) (funext fun a => Fin.ext ?_)
    match a with
    | ⟨0, _⟩ => show win0_2.index t (0 : Fin 3) * 1 + 1 * 0 = win0_3.index t (0 : Fin 3) * 1 + 1 * u.val; omega
    | ⟨1, _⟩ => show win0_2.index t (1 : Fin 3) * 2048 + 1 * j'.val = j'.val; omega
    | ⟨2, _⟩ => show win0_2.index t (2 : Fin 3) * 64 + 1 * e'.val = e'.val; omega
  · refine Fin.ext ?_
    show e.val = win0_3.index t (2 : Fin 3) * 64 + 1 * e.val
    omega

/-- An index of the output array is in point `t`'s block iff each coordinate is in the block's range on its axis. -/
theorem mem_outputs_block (t : Fin cfg0.N) (i : S32x2048x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v3_0).slice (win0_3.rect t)).set ↔ _
  rw [View.set_slice_whole, Rect.mem_set_unit]
  exact Iff.rfl

/-- Every index of the output array is in some point's block. -/
theorem outputs_cover (i : S32x2048x64.Idx) :
    ∃ t : Fin cfg0.N, (cfg0.win 3).flush t = true ∧ i ∈ ((cfg0.win 3).blk t).view.set := by
  have h0 : (i 0).val < 32 := (i 0).isLt
  have h1 : (i 1).val < 2048 := (i 1).isLt
  have h2 : (i 2).val < 64 := (i 2).isLt
  obtain ⟨t, ht⟩ := outputs_onto ⟨(i 0).val, h0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_outputs_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- THE OUTPUT ARRAY after the region: the stacked outputs of the three arrays as the region finds them. -/
theorem final_outputs (c : Dev nD) :
    (dats m 0 c).arrAt 3 cfg0.N = out3 (V m c main_v0) (V m c main_v1) (V m c main_v2) :=
  (dats m 0 c).arrAt_eq_of_cover 3 (out3 (V m c main_v0) (V m c main_v1) (V m c main_v2))
    (fun t _ => flushed_outputs m c t) outputs_cover

end Cert.PowerAttn

end
-- ==== Proof.KernelRun.lean ====
/-
  The kernel program's run, with its two results named.

  Before the region the program stacks each of the three arguments (2 batches of 16 heads into 32 matrices); the
  region leaves the stacked outputs and the stacked weights of those three arrays; after the region the program
  unstacks both. Stacking, attending and unstacking is the attention in the batched layout, so the program ends with
  the batched outputs and the batched weights of its arguments, and the arguments as they were.
-/
import proofs.«152474_j47691316855187_1_alg».proof.Proof.Blocks
import Idealize.ShloMosaic.Lib.StableHlo.Run

set_option maxRecDepth 16384

noncomputable section

namespace Cert.PowerAttn

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The arrays as the region finds them: the arguments, stacked -/

theorem entry_queries (c : Dev nD) :
    (V m c main_v0 : S32x2048x64.Idx → EReal)
      = shapeCast S32x2048x64 (m ((c : Thread nD τ).loc main_arg0)) shapeCasts_S2x16x2048x64_S32x2048x64 := by
  show StableHlo.after hostOps0 (fun b => m (c, b)) (Proc.devRef .tc main_v0) = _
  after_results
  rfl

theorem entry_keys (c : Dev nD) :
    (V m c main_v1 : S32x2048x64.Idx → EReal)
      = shapeCast S32x2048x64 (m ((c : Thread nD τ).loc main_arg1)) shapeCasts_S2x16x2048x64_S32x2048x64 := by
  show StableHlo.after hostOps0 (fun b => m (c, b)) (Proc.devRef .tc main_v1) = _
  after_results
  rfl

theorem entry_values (c : Dev nD) :
    (V m c main_v2 : S32x2048x64.Idx → EReal)
      = shapeCast S32x2048x64 (m ((c : Thread nD τ).loc main_arg2)) shapeCasts_S2x16x2048x64_S32x2048x64 := by
  show StableHlo.after hostOps0 (fun b => m (c, b)) (Proc.devRef .tc main_v2) = _
  after_results
  rfl

/-! ## After the region: both output arrays, unstacked -/

/-- The region leaves the stacked outputs in its first output array. -/
theorem region_outputs (c : Dev nD) :
    Pipeline.withArrays (cfgs 0).spec c (V0 m c) (fun w => (dats m 0 c).arrAt w (cfgs 0).N) (Proc.devRef .tc main_v3_0)
      = out3 (V m c main_v0) (V m c main_v1) (V m c main_v2) :=
  (Pipeline.withArrays_arr spec0 launch0.win.arr_inj c _ _ 3).trans (final_outputs m c)

/-- The region leaves the stacked weights in its second output array. -/
theorem region_weights (c : Dev nD) :
    Pipeline.withArrays (cfgs 0).spec c (V0 m c) (fun w => (dats m 0 c).arrAt w (cfgs 0).N) (Proc.devRef .tc main_v3_1)
      = prob3 (V m c main_v0) (V m c main_v1) :=
  (Pipeline.withArrays_arr spec0 launch0.win.arr_inj c _ _ 4).trans (final_weights m c)

/-- The first result: the batched outputs of the arguments. -/
theorem tail_outputs (c : Dev nD) :
    Pipeline.afterTail₀ cfgs (dats m) 0 (V0 m) [hostOps1] c main_v4
      = out4 (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  refine Eq.trans (b := shapeCast S2x16x2048x64 (out3 (V m c main_v0) (V m c main_v1) (V m c main_v2))
    shapeCasts_S32x2048x64_S2x16x2048x64) ?_ ?_
  · exact congrArg (fun A : S32x2048x64.Idx → EReal => shapeCast S2x16x2048x64 A shapeCasts_S32x2048x64_S2x16x2048x64)
      (region_outputs m c)
  · rw [entry_queries, entry_keys, entry_values]
    exact unstack_out3 _ _ _ _ _

/-- The second result: the batched weights of the arguments. -/
theorem tail_weights (c : Dev nD) :
    Pipeline.afterTail₀ cfgs (dats m) 0 (V0 m) [hostOps1] c main_v5
      = prob4 (m ((c : Thread nD τ).loc main_arg0)) (m ((c : Thread nD τ).loc main_arg1)) := by
  unfold Pipeline.afterTail₀
  show StableHlo.after hostOps1 _ (Proc.devRef .tc main_v5) = _
  after_results
  refine Eq.trans (b := shapeCast S2x16x2048x2048 (prob3 (V m c main_v0) (V m c main_v1))
    shapeCasts_S32x2048x2048_S2x16x2048x2048) ?_ ?_
  · exact congrArg (fun A : S32x2048x2048.Idx → EReal => shapeCast S2x16x2048x2048 A shapeCasts_S32x2048x2048_S2x16x2048x2048)
      (region_weights m c)
  · rw [entry_queries, entry_keys]
    exact unstack_prob3 _ _ _ _

/-! ## The run -/

/-- Every weakly fair execution of the kernel program terminates with its first result at the batched outputs and its
    second at the batched weights of the arguments, and the arguments unchanged. -/
theorem run : θ_run defs (onTc (τ := τ) (main (F := Ideal))) ⟨m, fun _ => 0, ρ⟩ fun r => ∀ c : Dev nD,
      r.2.mem ((c.tc : Thread nD τ).loc main_v4)
        = out4 (m ((c.tc : Thread nD τ).loc main_arg0)) (m ((c.tc : Thread nD τ).loc main_arg1)) (m ((c.tc : Thread nD τ).loc main_arg2))
      ∧ r.2.mem ((c.tc : Thread nD τ).loc main_v5)
        = prob4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_outputs m c),
      ((h c).2 main_v5 (Pipeline.mem_restRefs_of main_v5 (by decide) (by decide))).trans (tail_weights m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.PowerAttn

end
-- ==== Proof.RefIsSpec.lean ====
/-
  The reference computes the specification.

  The reference multiplies each head's queries with its keys (a product batched over batch and head, contracting the
  last axis of both), scales, squares, sums each row from zero, adds the stabiliser, divides, and multiplies the weights
  with the head's values. Read one stage at a time at an entry `(b, h, r, j)`, every stage is the row function of the
  specification at query row `(b, h, r)`: the sum from zero is the bare sum, and each index the stages compute from
  `(b, h, r, j)` is the evident one.
-/
import proofs.«152474_j47691316855187_1_alg».proof.Proof.Gen.ReferenceIdeal.Read
import proofs.«152474_j47691316855187_1_alg».proof.Proof.Heads

noncomputable section

open scoped BigOperators

namespace Cert.PowerAttn

open Idealize.ShloMosaic Idealize.ShloMosaic.ValueIdx
open Cert.ReferenceIdeal Cert.ReferenceIdeal.Read

variable (x0 x1 x2 : (⟨S2x16x2048x64, .f32⟩ : BufTy).Contents (Elt Ideal))

/-- The scaled product at `(b, h, r, j)`: query row `(b, h, r)` against key row `(b, h, j)`. -/
theorem ref_score (b : Fin 2) (h : Fin 16) (r j : Fin 2048) :
    val_main_v2 (F := Ideal) x0 x1 (ix4 b h r j)
      = rowScore (fun d => x0 (ix4 b h r d)) (fun j' d => x1 (ix4 b h j' d)) j := by
  rw [val_main_v2_apply, val_main_v0_apply, val_main_v1_apply, val_main_cst_apply]
  unfold rowScore
  show (∑ k : Fin 64, x0 (lidx_main_v0 (ix4 b h r j) k) * x1 (ridx_main_v0 (ix4 b h r j) k)) * _ = _
  refine congrArg₂ (· * ·) (Finset.sum_congr rfl fun d _ => ?_) rfl
  have el : lidx_main_v0 (ix4 b h r j) d = ix4 b h r d := funext fun a => Fin.ext (by
    match a with | ⟨0, _⟩ => rfl | ⟨1, _⟩ => rfl | ⟨2, _⟩ => rfl | ⟨3, _⟩ => rfl)
  have er : ridx_main_v0 (ix4 b h r j) d = ix4 b h j d := funext fun a => Fin.ext (by
    match a with | ⟨0, _⟩ => rfl | ⟨1, _⟩ => rfl | ⟨2, _⟩ => rfl | ⟨3, _⟩ => rfl)
  rw [el, er]

/-- Its square. -/
theorem ref_weight (b : Fin 2) (h : Fin 16) (r j : Fin 2048) :
    val_main_v3 (F := Ideal) x0 x1 (ix4 b h r j)
      = rowWeight (fun d => x0 (ix4 b h r d)) (fun j' d => x1 (ix4 b h j' d)) j := by
  rw [val_main_v3_apply, ref_score]
  rfl

/-- The row's total from zero, stabilised, kept as a one-entry row. -/
theorem ref_total (b : Fin 2) (h : Fin 16) (r : Fin 2048) (u : Fin 1) :
    val_main_v7 (F := Ideal) x0 x1 (ix4 b h r u)
      = rowTotal (fun d => x0 (ix4 b h r d)) (fun j' d => x1 (ix4 b h j' d)) := by
  rw [val_main_v7_apply, val_main_v5_apply, val_main_v4_apply, val_main_v6_apply, val_main_cst_1_apply, val_main_cst_0_apply]
  unfold rowTotal
  show (Ideal.ofBits .f32 0x00000000#32 + ∑ k : Fin 2048, _) + _ = _
  rw [Ideal.ofBits_zero_f32, zero_add]
  refine congrArg₂ (· + ·) (Finset.sum_congr rfl fun k _ => ?_) rfl
  have e : idx_main_v4 (idx_main_v5 (ix4 b h r u)) k = ix4 b h r k := funext fun a => Fin.ext (by
    match a with | ⟨0, _⟩ => rfl | ⟨1, _⟩ => rfl | ⟨2, _⟩ => rfl | ⟨3, _⟩ => rfl)
  rw [e, ref_weight]

/-- The reference's weights are the batched weights of the specification. -/
theorem ref_prob : val_main_v9 (F := Ideal) x0 x1 = prob4 x0 x1 := by
  funext i
  obtain ⟨b, h, r, j, rfl⟩ : ∃ (b : Fin 2) (h : Fin 16) (r : Fin 2048) (j : Fin 2048), i = ix4 b h r j :=
    ⟨i 0, i 1, i 2, i 3, eq_ix4 i⟩
  rw [val_main_v9_apply, ref_weight, val_main_v8_apply]
  have e : idx_main_v8 (ix4 b h r j) = ix4 b h r (0 : Fin 1) := funext fun a => Fin.ext (by
    match a with | ⟨0, _⟩ => rfl | ⟨1, _⟩ => rfl | ⟨2, _⟩ => rfl | ⟨3, _⟩ => rfl)
  rw [e, ref_total]
  rfl

/-- The reference's outputs are the batched outputs of the specification. -/
theorem ref_out : val_main_v10 (F := Ideal) x0 x1 x2 = out4 x0 x1 x2 := by
  funext i
  obtain ⟨b, h, r, e, rfl⟩ : ∃ (b : Fin 2) (h : Fin 16) (r : Fin 2048) (e : Fin 64), i = ix4 b h r e :=
    ⟨i 0, i 1, i 2, i 3, eq_ix4 i⟩
  rw [val_main_v10_apply, ref_prob]
  show _ = rowOut (fun d => x0 (ix4 b h r d)) (fun j' d => x1 (ix4 b h j' d)) (fun j' e' => x2 (ix4 b h j' e')) e
  unfold rowOut
  refine Finset.sum_congr rfl fun k _ => ?_
  have el : lidx_main_v10 (ix4 b h r e) k = ix4 b h r k := funext fun a => Fin.ext (by
    match a with | ⟨0, _⟩ => rfl | ⟨1, _⟩ => rfl | ⟨2, _⟩ => rfl | ⟨3, _⟩ => rfl)
  have er : ridx_main_v10 (ix4 b h r e) k = ix4 b h k e := funext fun a => Fin.ext (by
    match a with | ⟨0, _⟩ => rfl | ⟨1, _⟩ => rfl | ⟨2, _⟩ => rfl | ⟨3, _⟩ => rfl)
  rw [el, er]
  rfl

end Cert.PowerAttn

end
-- ==== Proof.lean ====
/-
  Power-normalised attention over 2 batches of 16 heads, 2048 positions, 64 features: a tiled kernel against the
  plain formulation.

  Both programs compute, for every query row, the scaled inner products with its head's key rows, square them, divide
  by their stabilised sum, and average the head's value rows with the resulting weights; both return the averages and
  the weights. The kernel stacks the 32 heads, gives each of 32 × 8 grid points 256 query rows of one head together
  with all of that head's keys and values, and unstacks what the points wrote; the reference works on the batched
  arrays whole. A row of the result depends only on its own query row and on its head's keys and values, so the tiling
  changes nothing, and stacking and unstacking move no entry. At the ideal values narrowing to a shorter float format
  is the identity, a product accumulated into zero is the bare sum, and a sum started from zero is the bare sum; the
  scale 1/8 and the stabiliser are the same 32-bit patterns in both programs. No step uses that the inputs are finite.

  The frames of the two kernel programs are the generated ones; the reference's frame is its generated run with the
  results dropped; the idealized kernel is the kernel's own text read at the ideal values, so nothing is owed for it.
-/
import proofs.«152474_j47691316855187_1_alg».proof.Defs
import proofs.«152474_j47691316855187_1_alg».proof.Proof.Gen.Kernel
import proofs.«152474_j47691316855187_1_alg».proof.Proof.Gen.Kernel.Skeleton
import proofs.«152474_j47691316855187_1_alg».proof.Proof.Gen.Kernel.Launch
import proofs.«152474_j47691316855187_1_alg».proof.Proof.Gen.Kernel.Points
import proofs.«152474_j47691316855187_1_alg».proof.Proof.Gen.Kernel.Frame
import proofs.«152474_j47691316855187_1_alg».proof.Proof.Gen.KernelIdeal
import proofs.«152474_j47691316855187_1_alg».proof.Proof.Gen.KernelIdeal.Skeleton
import proofs.«152474_j47691316855187_1_alg».proof.Proof.Gen.KernelIdeal.Launch
import proofs.«152474_j47691316855187_1_alg».proof.Proof.Gen.KernelIdeal.Points
import proofs.«152474_j47691316855187_1_alg».proof.Proof.Gen.KernelIdeal.Frame
import proofs.«152474_j47691316855187_1_alg».proof.Proof.Gen.ReferenceIdeal
import proofs.«152474_j47691316855187_1_alg».proof.Proof.Gen.Pre_finite_inputs
import proofs.«152474_j47691316855187_1_alg».proof.Proof.Gen.ReferenceIdeal.Run
import proofs.«152474_j47691316855187_1_alg».proof.Proof.Gen.ReferenceIdeal.Read
import proofs.«152474_j47691316855187_1_alg».proof.Proof.KernelRun
import proofs.«152474_j47691316855187_1_alg».proof.Proof.RefIsSpec
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference runs and keeps its arguments: its run, the results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- Run from memories that agree on the three arguments, both programs end with the batched outputs and the batched
    weights of those arguments. -/
theorem algebraic : Cert.algebraic_KernelIdeal_ReferenceIdeal := by
  intro m ρ m' ρ' _ hagree
  refine ⟨fun c => Cert.PowerAttn.out4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.PowerAttn.prob4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.PowerAttn.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v10_eq, Cert.PowerAttn.ref_out, (hagree c).1, (hagree c).2.1, (hagree c).2.2]
  · rw [(h c).2.1, Cert.ReferenceIdeal.Read.val_main_v9_eq, Cert.PowerAttn.ref_prob, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
